-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x25000 : Shape := ⟨3, ![2, 128, 25000]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S2x128x25000 : S_.BroadcastsInDim S2x128x25000 (![] : Fin 0 → Fin S2x128x25000.rank)
  reducesTo_S2x128x25000_S_d0_1_2 : S2x128x25000.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S2x128x25000 .f32) (main_arg1 : FVec F S128x128 .f32) (main_arg2 : FVec F S128 .f32) (main_arg3 : IVec S2x800000 32) : IVec S_ 1 :=
  let main_v0 : FVec F S2x128x25000 .f32 := Host.absf main_arg0
  let main_cst : FVec F S_ .f32 := constant S_ .f32 0x7F800000#32
  let main_v1 : FVec F S2x128x25000 .f32 := broadcastInDim S2x128x25000 ![] bcast_S_S2x128x25000 main_cst
  let main_v2 : IVec S2x128x25000 1 := cmpf .olt main_v0 main_v1
  let main_c : IVec S_ 1 := constantI S_ 1 1#1
  let main_v3 : IVec S_ 1 := (fun x v => Host.reduce IntOp.andi x v reducesTo_S2x128x25000_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S2x128x25000 : Shape := ⟨3, ![2, 128, 25000]⟩
abbrev S128x128 : Shape := ⟨2, ![128, 128]⟩
abbrev S128 : Shape := ⟨1, ![128]⟩
abbrev S2x800000 : Shape := ⟨2, ![2, 800000]⟩
abbrev S2x25000x128 : Shape := ⟨3, ![2, 25000, 128]⟩
abbrev S50000x128 : Shape := ⟨2, ![50000, 128]⟩
abbrev S5000x128 : Shape := ⟨2, ![5000, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x1 : Shape := ⟨2, ![5000, 1]⟩

abbrev nBuf : Space → Nat
  | .hbm => 71
  | .vmem => 14
  | .smem => 0
  | _ => 0

abbrev bufTy : (tb : Table) → Fin (tcTables nBuf tb) → BufTy
  | .hbm, ⟨0, _⟩ => ⟨S2x128x25000, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S2x25000x128, .f32⟩
  | .hbm, ⟨5, _⟩ => ⟨S50000x128, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S1x128, .f32⟩
  | .hbm, ⟨68, _⟩ => ⟨S50000x128, .f32⟩
  | .hbm, ⟨69, _⟩ => ⟨S2x25000x128, .f32⟩
  | .hbm, ⟨70, _⟩ => ⟨S2x128x25000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S2x128x25000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S2x128x25000_S2x25000x128_0_2_1 : S2x128x25000.Transposes [0, 2, 1] S2x25000x128
  shapeCasts_S2x25000x128_S50000x128 : S2x25000x128.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S2x25000x128 : S50000x128.ShapeCasts S2x25000x128
  transposes_S2x25000x128_S2x128x25000_0_2_1 : S2x25000x128.Transposes [0, 2, 1] S2x128x25000
  dot_S5000x128_S128x128_S5000x128_1_0_0_1_n_n_wf : DotDims.WF S5000x128 S128x128 S5000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x128x25000 : Shape := ⟨3, ![2, 128, 25000]⟩
abbrev S128x128 : Shape := ⟨2, ![128, 128]⟩
abbrev S128 : Shape := ⟨1, ![128]⟩
abbrev S2x800000 : Shape := ⟨2, ![2, 800000]⟩
abbrev S2x25000x128 : Shape := ⟨3, ![2, 25000, 128]⟩
abbrev S50000x128 : Shape := ⟨2, ![50000, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S2x128x25000, .f32⟩
  | .hbm, ⟨1, _⟩ => ⟨S128x128, .f32⟩
  | .hbm, ⟨2, _⟩ => ⟨S128, .f32⟩
  | .hbm, ⟨3, _⟩ => ⟨S2x800000, .i32⟩
  | .hbm, ⟨4, _⟩ => ⟨S2x25000x128, .f32⟩
  | .hbm, ⟨5, _⟩ => ⟨S50000x128, .f32⟩
  | .hbm, ⟨6, _⟩ => ⟨S50000x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S_, .f32⟩
  | .hbm, ⟨22, _⟩ => ⟨S800000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x1, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S50000, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S2x25000x128, .f32⟩
  | .hbm, ⟨77, _⟩ => ⟨S2x128x25000, .f32⟩
  | _, _ => ⟨S2x128x25000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_cst : Ref sig .tc := ⟨.hbm, 73, rfl⟩
abbrev main_call0_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  transposes_S2x128x25000_S2x25000x128_0_2_1 : S2x128x25000.Transposes [0, 2, 1] S2x25000x128
  shapeCasts_S2x25000x128_S50000x128 : S2x25000x128.ShapeCasts S50000x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S2x25000x128 : S50000x128.ShapeCasts S2x25000x128
  transposes_S2x25000x128_S2x128x25000_0_2_1 : S2x25000x128.Transposes [0, 2, 1] S2x128x25000
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Launched.lean ====
/-
  The kernel program's run, with its result named.

  The program is five segments: two layout operations, the first kernel region, the graph-dependent host stage, the
  second kernel region, two layout operations. The launch over these segments ends with every unscoped buffer of a
  core at the last boundary's contents; the frame reads the four argument buffers off that state, and here the result
  buffer is read off it as well. So after every weakly fair execution the result buffer holds the last boundary's
  contents at that buffer, and the arguments are as launched.
-/
import proofs.«154906_j52965536694818_1_alg».proof.Proof.Gen.KernelIdeal.Frame

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four arguments as launched. -/
theorem run : θ_run defs (onTc (τ := τ) (main (F := F))) ⟨m, fun _ => 0, ρ⟩ (fun r => ∀ c : Dev nD,
      r.2.mem ((c.tc : Thread nD τ).loc main_v53) = W5 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v53 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Launched

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Transform.lean ====
/-
  The first kernel region: the transformed node features.

  The region walks the 50000 rows of the flattened input in ten blocks of 5000 rows; at each block it multiplies the
  5000×128 block by the whole 128×128 weight matrix (both operands narrowed to bf16, which at the ideal instance
  changes nothing) into a zero accumulator and writes the 5000×128 product back to the same rows of the result.
  So the result array, whatever the region found in its two operand arrays, is the textbook product: entry (r, j) is
  the sum over k of operand(r, k) · weight(k, j) on the extended reals. Row r lives in block r / 5000, and the ten
  blocks tile the rows, so every entry is written exactly by its own block.
-/
import proofs.«154906_j52965536694818_1_alg».proof.Proof.Gen.KernelIdeal.Frame
import proofs.«154906_j52965536694818_1_alg».proof.Proof.LibMatmulNN
import Idealize.ShloMosaic.Lib.Pipeline.Value
import Idealize.ShloMosaic.Lib.ValueIdx

noncomputable section

open scoped BigOperators

namespace Cert.KernelIdeal.Transform

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The product of a 50000×128 array with a 128×128 one, entry by entry. -/
def prod (a : FVec Ideal S50000x128 .f32) (w : FVec Ideal S128x128 .f32) : FVec Ideal S50000x128 .f32 :=
  fun i => ∑ k : Fin 128, a (ix2 (i 0) k) * w (ix2 k (i 1))

theorem hz : (![0, 0] : Fin 2 → Nat) = fun _ => 0 := funext fun a => by fin_cases a <;> rfl

/-- One block's product at a block-local entry: the format changes are the identity on the extended reals and the
    accumulator starts at zero, so the entry is the plain sum of products along the contracted axis. -/
theorem block_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  rw [shapeCast_self]
  exact Cert.LibMatmulNN.matmul_zero_apply' dot_S5000x128_S128x128_S5000x128_1_0_0_1_n_n rfl rfl rfl rfl rfl rfl none
    (truncf .bf16 x0 bitsLt_bf16_f32) (truncf .bf16 x1 bitsLt_bf16_f32) p q

/-- Where the three windows' blocks sit at grid point t: the operand rows and the result rows move together, block t;
    the weight matrix is one block, always the same. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two operand arrays as the region finds them:
    the operand block holds rows 5000·t … 5000·t + 4999, the weight block is the whole matrix, and the result block
    goes to the same rows. -/
theorem flushed_eq (c : Dev nD) (t : Fin cfg0.N) :
    (dat0 V c).flushed 2 t = ((cfg0.win 2).blk t).view.read (Elt Ideal) (prod (V c main_v1) (V c main_arg1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := index_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
     = prod (V c main_v1) (V c main_arg1) (((cfg0.win 2).blk t).view.emb (ix2 p q))
  refine (block_apply (iblk0 V c 0 t) (iblk0 V c 1 t) p q).trans ?_
  unfold prod
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  congr 1
  · show V c main_v1 (((cfg0.win 0).blk t).view.emb (ix2 p k)) = _
    rw [h0]; rfl
  · show V c main_arg1 (((cfg0.win 1).blk t).view.emb (ix2 k q)) = _
    rw [h1]; rfl

/-- An entry of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v2).slice (win0_2.rect t)).set ↔ _
  rw [View.set_slice_whole, Rect.mem_set_unit]
  exact Iff.rfl

/-- Every entry is written by some point: row r by point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The result array after the region: the product of the two operand arrays as the region found them. -/
theorem final (c : Dev nD) : (dat0 V c).arrAt 2 cfg0.N = prod (V c main_v1) (V c main_arg1) :=
  (dat0 V c).arrAt_eq_of_cover 2 (prod (V c main_v1) (V c main_arg1)) (fun t _ => flushed_eq V c t) cover

end Cert.KernelIdeal.Transform

end
-- ==== Proof.Combine.lean ====
/-
  The second kernel region: aggregated messages plus the self-loop term plus the bias, clamped at zero.

  The region walks the 50000 node rows in ten blocks of 5000. At each block it reads the block's rows of the
  aggregated messages, of the transformed features and of the one-column array of reciprocal degrees, and the whole
  one-row bias; it forms (aggregate + feature · reciprocal degree of the row) + bias of the column, takes the maximum
  with zero, and writes the 5000×128 block back to the same rows. So whatever the region found in its four operand
  arrays, entry (r, j) of the result is max((A(r, j) + H(r, j) · D(r, 0)) + B(0, j), 0) on the extended reals: every
  row is written exactly by its own block, and nothing but a broadcast along the columns (of D) or along the rows
  (of B) relates an entry to the operands.
-/
import proofs.«154906_j52965536694818_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The combined layer output, entry by entry: aggregate plus feature times the row's reciprocal degree, plus the
    column's bias, clamped below at zero. -/
def out (a h : FVec Ideal S50000x128 .f32) (d : FVec Ideal S50000x1 .f32) (b : FVec Ideal S1x128 .f32) :
    FVec Ideal S50000x128 .f32 :=
  fun i => max ((a i + h i * d (ix2 (i 0) (0 : Fin 1))) + b (ix2 (0 : Fin 1) (i 1))) (Ideal.ofBits .f32 0x00000000#32)

theorem hz : (![0, 0] : Fin 2 → Nat) = fun _ => 0 := funext fun a => by fin_cases a <;> rfl

/-- A one-column array broadcast along the columns reads, at (p, j), the column's value in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-- One block's result at a block-local entry (p, j), from the four loaded blocks. -/
theorem block_apply (xh : Vec Ideal S5000x128 .f32) (xd : Vec Ideal S5000x1 .f32) (xb : Vec Ideal S1x128 .f32)
    (xa : Vec Ideal S5000x128 .f32) (p : Fin 5000) (j : Fin 128) :
    k1_pay1 xh xd xb xa (ix2 p j)
      = max ((xa (ix2 p j) + xh (ix2 p j) * xd (ix2 p (0 : Fin 1))) + xb (ix2 (0 : Fin 1) j)) (Ideal.ofBits .f32 0x00000000#32) := by
  unfold k1_pay1
  simp only [shapeCast_self]
  rw [maximumf_apply, addf_apply, addf_apply, mulf_apply, broadcast_apply]
  rw [broadcastTo_a1_ab_apply xd broadcasts_S5000x1_S5000x128 p j,
    broadcastTo_1b_ab_apply xb broadcasts_S1x128_S5000x128 p j]
  rfl

/-- Where the five windows' blocks sit at grid point t: the three row-blocked operands and the result move
    together, block t; the one-column operand has one column block; the bias is one block, always the same. -/
theorem index_facts : ∀ t : Fin cfg1.N, win1_0.index t (0 : Fin 2) = win1_4.index t (0 : Fin 2)
    ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t writes back is block t of the combined output of the four operand arrays as the region finds
    them: each row-blocked operand's block holds rows 5000·t … 5000·t + 4999, the bias block is the whole row. -/
theorem flushed_eq (c : Dev nD) (t : Fin cfg1.N) :
    (dat1 V c).flushed 4 t = ((cfg1.win 4).blk t).view.read (Elt Ideal)
      (out (V c main_v46) (V c main_v2) (V c main_v49) (V c main_v50)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S1x128) hz]
  obtain ⟨e0, e1, e2, e3, e4, e5, e6, e7, e8, e9⟩ := index_facts t
  funext j
  obtain ⟨p, q, rfl⟩ : ∃ (p : Fin 5000) (q : Fin 128), j = ix2 p q := ⟨j 0, j 1, eq_ix2 j⟩
  show k1_pay1 (iblk1 V c 1 t) (iblk1 V c 2 t) (iblk1 V c 3 t) (iblk1 V c 0 t) (ix2 p q)
     = out (V c main_v46) (V c main_v2) (V c main_v49) (V c main_v50) (((cfg1.win 4).blk t).view.emb (ix2 p q))
  refine (block_apply (iblk1 V c 1 t) (iblk1 V c 2 t) (iblk1 V c 3 t) (iblk1 V c 0 t) p q).trans ?_
  unfold out
  have ha : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have hh : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have hd : ((cfg1.win 2).blk t).view.emb (ix2 p (0 : Fin 1))
      = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have hb : ((cfg1.win 3).blk t).view.emb (ix2 (0 : Fin 1) q)
      = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega
  have ra : (iblk1 V c 0 t : Vec Ideal S5000x128 .f32) (ix2 p q)
      = V c main_v46 (((cfg1.win 4).blk t).view.emb (ix2 p q)) := by
    show V c main_v46 (((cfg1.win 0).blk t).view.emb (ix2 p q)) = _
    rw [ha]
  have rh : (iblk1 V c 1 t : Vec Ideal S5000x128 .f32) (ix2 p q)
      = V c main_v2 (((cfg1.win 4).blk t).view.emb (ix2 p q)) := by
    show V c main_v2 (((cfg1.win 1).blk t).view.emb (ix2 p q)) = _
    rw [hh]
  have rd : (iblk1 V c 2 t : Vec Ideal S5000x1 .f32) (ix2 p (0 : Fin 1))
      = V c main_v49 (ix2 ((((cfg1.win 4).blk t).view.emb (ix2 p q)) 0) (0 : Fin 1)) := by
    show V c main_v49 (((cfg1.win 2).blk t).view.emb (ix2 p (0 : Fin 1))) = _
    rw [hd]; rfl
  have rb : (iblk1 V c 3 t : Vec Ideal S1x128 .f32) (ix2 (0 : Fin 1) q)
      = V c main_v50 (ix2 (0 : Fin 1) ((((cfg1.win 4).blk t).view.emb (ix2 p q)) 1)) := by
    show V c main_v50 (((cfg1.win 3).blk t).view.emb (ix2 (0 : Fin 1) q)) = _
    rw [hb]; rfl
  rw [ra, rh, rd, rb]

/-- An entry of the result array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v51).slice (win1_4.rect t)).set ↔ _
  rw [View.set_slice_whole, Rect.mem_set_unit]
  exact Iff.rfl

/-- Every entry is written by some point: row r by point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e8, e9⟩ := index_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e9]; omega

/-- The result array after the region: the combined output of the four operand arrays as the region found them. -/
theorem final (c : Dev nD) :
    (dat1 V c).arrAt 4 cfg1.N = out (V c main_v46) (V c main_v2) (V c main_v49) (V c main_v50) :=
  (dat1 V c).arrAt_eq_of_cover 4 (out (V c main_v46) (V c main_v2) (V c main_v49) (V c main_v50))
    (fun t _ => flushed_eq V c t) cover

end Cert.KernelIdeal.Combine

end
-- ==== Proof.Graph.lean ====
/-
  The graph-dependent host stage, named once.

  Between its two kernel regions the program computes, from the transformed node features H (50000×128) and the
  edge list E (2×800000: row 0 the sources, row 1 the destinations), exactly what the reference computes from its own
  H: the in-degree plus one of every node (a scatter-add of ones at the destinations, negative indices wrapped by
  +50000), its reciprocal square root gathered at both ends of every edge and multiplied (the edge weight), the
  features gathered at the sources and scaled by the edge weight (the messages), and the scatter-add of the messages
  at the destinations (the aggregate); and the reciprocal degree as a column. These are the same host operations in
  both programs, so the certificate never looks inside them: it names them as functions of H and E and carries them
  unopened. The layouts around the kernel regions are named the same way: nodes-by-channels from the
  batch-by-channels-by-time input and back.
-/
import proofs.«154906_j52965536694818_1_alg».proof.Proof.Gen.KernelIdeal

noncomputable section

namespace Cert.KernelIdeal.Graph

open Cert.KernelIdeal Cert.KernelIdeal.Gen Idealize.ShloMosaic

variable {F : FTy → Type} [FloatOps F]

/-- The input as nodes by channels: time moved ahead of channels, then batch and time merged. -/
def nodes (x : Vec F S2x128x25000 .f32) : Vec F S50000x128 .f32 :=
  shapeCast _ (transpose S2x25000x128 [0, 2, 1] x transposes_S2x128x25000_S2x25000x128_0_2_1)
    shapeCasts_S2x25000x128_S50000x128

/-- A nodes-by-channels array back in the input's layout. -/
def unnodes (o : Vec F S50000x128 .f32) : Vec F S2x128x25000 .f32 :=
  transpose S2x128x25000 [0, 2, 1] (shapeCast _ o shapeCasts_S50000x128_S2x25000x128)
    transposes_S2x25000x128_S2x128x25000_0_2_1

/-- The source end of every edge. -/
def src (e : Vec F S2x800000 .i32) : Vec F S800000 .i32 :=
  shapeCast _ (extractStridedSlice S1x800000 ![0, 0] e slices_S2x800000_S1x800000_0_0) shapeCasts_S1x800000_S800000

/-- The destination end of every edge. -/
def dst (e : Vec F S2x800000 .i32) : Vec F S800000 .i32 :=
  shapeCast _ (extractStridedSlice S1x800000 ![1, 0] e slices_S2x800000_S1x800000_1_0) shapeCasts_S1x800000_S800000

/-- Node indices with the negative ones moved up by the number of nodes. -/
def wrap (v : Vec F S800000 .i32) : Vec F S800000 .i32 :=
  select (cmpi .slt v (broadcastInDim S800000 ![] bcast_S_S800000 (constantI S_ 32 0#32)))
    (addi v (broadcastInDim S800000 ![] bcast_S_S800000 (constantI S_ 32 50000#32))) v

/-- The in-degree of every node, plus one for its self-loop. -/
def deg (e : Vec F S2x800000 .i32) : Vec F S50000 .f32 :=
  addf
    (Host.scatterAdd scatter_S50000_S800000x1_S800000_n_0_0_1
      (broadcastInDim S50000 ![] bcast_S_S50000 (constant (F := F) S_ .f32 0x00000000#32))
      (broadcastInDim S800000x1 ![0] bcast_S800000_S800000x1_0 (wrap (F := F) (dst (F := F) e)))
      (broadcastInDim S800000 ![] bcast_S_S800000 (constant (F := F) S_ .f32 0x3F800000#32)))
    (broadcastInDim S50000 ![] bcast_S_S50000 (constant (F := F) S_ .f32 0x3F800000#32))

/-- The weight of every edge: the product of the reciprocal square roots of the degrees at its two ends. -/
def weight (e : Vec F S2x800000 .i32) : Vec F S800000 .f32 :=
  mulf
    (Host.gather gather_S50000_S800000x1_S800000_n_0_n_n_0_1_1 (Host.rsqrt (deg (F := F) e))
      (broadcastInDim S800000x1 ![0] bcast_S800000_S800000x1_0 (wrap (F := F) (src (F := F) e))))
    (Host.gather gather_S50000_S800000x1_S800000_n_0_n_n_0_1_1 (Host.rsqrt (deg (F := F) e))
      (broadcastInDim S800000x1 ![0] bcast_S800000_S800000x1_0 (wrap (F := F) (dst (F := F) e))))

/-- The aggregate: every edge carries its source's features times its weight to its destination, and each node
    sums what arrives. -/
def agg (h : Vec F S50000x128 .f32) (e : Vec F S2x800000 .i32) : Vec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 (dst (F := F) e))
    (mulf
      (Host.gather gather_S50000x128_S800000x1_S800000x128_1_0_n_n_0_1_1128 h
        (broadcastInDim S800000x1 ![0] bcast_S800000_S800000x1_0 (wrap (F := F) (src (F := F) e))))
      (broadcastInDim S800000x128 ![0, 1] bcast_S800000x1_S800000x128_0_1
        (broadcastInDim S800000x1 ![0] bcast_S800000_S800000x1_0 (weight (F := F) e))))

/-- The reciprocal degree of every node. -/
def invdeg (e : Vec F S2x800000 .i32) : Vec F S50000 .f32 :=
  Host.divf (broadcastInDim S50000 ![] bcast_S_S50000 (constant (F := F) S_ .f32 0x3F800000#32)) (deg (F := F) e)

/-- The reciprocal degrees as a one-column array, the form the second region reads. -/
def invdegCol (e : Vec F S2x800000 .i32) : Vec F S50000x1 .f32 :=
  shapeCast _ (invdeg (F := F) e) shapeCasts_S50000_S50000x1

/-- The bias as a one-row array, the form the second region reads. -/
def biasRow (b : Vec F S128 .f32) : Vec F S1x128 .f32 :=
  shapeCast _ b shapeCasts_S128_S1x128

end Cert.KernelIdeal.Graph

end
-- ==== Proof.Layer.lean ====
/-
  The whole layer as one function of its four arguments.

  From the input x (batch × channels × time), the weight matrix w, the bias b and the edge list e: the transformed
  features are the node-major input times w; the aggregate sums, at every node, the features of its in-neighbours
  scaled by the symmetric degree normalisation; the output adds the node's own features over its degree and the bias,
  clamps at zero, and returns to the input's layout. Both programs compute this function; the certificate states each
  program's result with this one term.
-/
import proofs.«154906_j52965536694818_1_alg».proof.Proof.Transform
import proofs.«154906_j52965536694818_1_alg».proof.Proof.Combine
import proofs.«154906_j52965536694818_1_alg».proof.Proof.Graph

noncomputable section

namespace Cert.KernelIdeal.Layer

open Cert.KernelIdeal Idealize.ShloMosaic

/-- The transformed features: the node-major input times the weight matrix. -/
def features (x : Vec Ideal S2x128x25000 .f32) (w : Vec Ideal S128x128 .f32) : FVec Ideal S50000x128 .f32 :=
  Transform.prod (Graph.nodes (F := Ideal) x) w

/-- The layer's output from its four arguments. -/
def layer (x : Vec Ideal S2x128x25000 .f32) (w : Vec Ideal S128x128 .f32) (b : Vec Ideal S128 .f32)
    (e : Vec Ideal S2x800000 .i32) : Vec Ideal S2x128x25000 .f32 :=
  Graph.unnodes (F := Ideal)
    (Combine.out (Graph.agg (F := Ideal) (features x w) e) (features x w)
      (Graph.invdegCol (F := Ideal) e) (Graph.biasRow (F := Ideal) b))

end Cert.KernelIdeal.Layer

end
-- ==== Proof.Result.lean ====
/-
  What the kernel program leaves in its result buffer, as one function of its arguments.

  Walking the program's boundaries backwards from the result: the result is the second region's output array put back
  in the input's layout; that array is the combined layer output of the four arrays the second region finds; those
  are, by the graph-dependent host stage, the aggregate of the features over the edge list, the features themselves,
  the reciprocal degrees as a column and the bias as a row; the features are the first region's output array, the
  product of the node-major input with the weight matrix; and the edge list, the bias, the weight matrix and the
  input reach every stage as launched, since no stage writes an argument. Each host stage is read off its list of
  operations for an arbitrary starting valuation, once.
-/
import proofs.«154906_j52965536694818_1_alg».proof.Proof.Gen.KernelIdeal.Frame
import proofs.«154906_j52965536694818_1_alg».proof.Proof.Transform
import proofs.«154906_j52965536694818_1_alg».proof.Proof.Combine
import proofs.«154906_j52965536694818_1_alg».proof.Proof.Graph
import proofs.«154906_j52965536694818_1_alg».proof.Proof.Layer
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

/-! ## The three host stages, from any starting contents -/

section Stages

variable {F : FTy → Type} [FloatOps F] (U : Valuation τ sig (Elt F))

/-- The first stage leaves the node-major form of the input in the first region's operand. -/
theorem head_nodes : StableHlo.after hostOps0 U (Proc.devRef .tc main_v1) = Graph.nodes (F := F) (U (Proc.devRef .tc main_arg0)) := by
  after_results
  rfl

/-- The first stage leaves the weight matrix, the bias and the edge list alone. -/
theorem head_keeps_arg1 : StableHlo.after hostOps0 U (Proc.devRef .tc main_arg1) = U (Proc.devRef .tc main_arg1) := by
  after_results
theorem head_keeps_arg2 : StableHlo.after hostOps0 U (Proc.devRef .tc main_arg2) = U (Proc.devRef .tc main_arg2) := by
  after_results
theorem head_keeps_arg3 : StableHlo.after hostOps0 U (Proc.devRef .tc main_arg3) = U (Proc.devRef .tc main_arg3) := by
  after_results

/-- The last stage puts the second region's output back in the input's layout. -/
theorem tail_unnodes : StableHlo.after hostOps2 U (Proc.devRef .tc main_v53) = Graph.unnodes (F := F) (U (Proc.devRef .tc main_v51)) := by
  after_results
  rfl

/-- The middle stage leaves the features alone, -/
theorem mid_keeps_features : StableHlo.after hostOps1 U (Proc.devRef .tc main_v2) = U (Proc.devRef .tc main_v2) := by
  after_results_simp

/-- computes the aggregate of the features over the edge list, -/
theorem mid_agg : StableHlo.after hostOps1 U (Proc.devRef .tc main_v46)
    = Graph.agg (F := F) (U (Proc.devRef .tc main_v2)) (U (Proc.devRef .tc main_arg3)) := by
  after_results_simp
  rfl

/-- the reciprocal degrees as a column, -/
theorem mid_invdeg : StableHlo.after hostOps1 U (Proc.devRef .tc main_v49)
    = Graph.invdegCol (F := F) (U (Proc.devRef .tc main_arg3)) := by
  after_results_simp
  rfl

/-- and the bias as a row. -/
theorem mid_bias : StableHlo.after hostOps1 U (Proc.devRef .tc main_v50)
    = Graph.biasRow (F := F) (U (Proc.devRef .tc main_arg2)) := by
  after_results_simp
  rfl

end Stages

/-! ## The result, from the arguments -/

variable (m : (ℓ : Loc nD τ sig) → Buf (Elt Ideal) ℓ) (ρ : Dev nD → PrngReg)

/-- The transformed features of the launched input and weight matrix. -/
abbrev features (c : Dev nD) : FVec Ideal S50000x128 .f32 :=
  Layer.features (m ((c.tc : Thread nD τ).loc main_arg0)) (m ((c.tc : Thread nD τ).loc main_arg1))

/-- The layer of the four launched arguments. -/
abbrev layer (c : Dev nD) : Vec Ideal S2x128x25000 .f32 :=
  Layer.layer (m ((c.tc : Thread nD τ).loc main_arg0)) (m ((c.tc : Thread nD τ).loc main_arg1))
    (m ((c.tc : Thread nD τ).loc main_arg2)) (m ((c.tc : Thread nD τ).loc main_arg3))

/-- After the first region its output array holds the transformed features. -/
theorem features_eq (c : Dev nD) : W2 m ρ c (Proc.devRef .tc main_v2) = features m c := by
  have h : W2 m ρ c (Proc.devRef .tc main_v2) = Transform.prod (V1 m ρ c main_v1) (V1 m ρ c main_arg1) :=
    (W2_arr m ρ c 2).trans (Transform.final (V1 m ρ) c)
  have e1 : V1 m ρ c main_v1 = Graph.nodes (F := Ideal) (m ((c.tc : Thread nD τ).loc main_arg0)) :=
    head_nodes (W0 m ρ c)
  have e2 : V1 m ρ c main_arg1 = m ((c.tc : Thread nD τ).loc main_arg1) := head_keeps_arg1 (W0 m ρ c)
  rw [e1, e2] at h
  exact h

/-- The edge list and the bias reach the middle stage as launched. -/
theorem edges_eq (c : Dev nD) : W2 m ρ c (Proc.devRef .tc main_arg3) = m ((c.tc : Thread nD τ).loc main_arg3) :=
  (W2_of_ne m ρ c main_arg3 (by decide)).trans (head_keeps_arg3 (W0 m ρ c))
theorem bias_eq (c : Dev nD) : W2 m ρ c (Proc.devRef .tc main_arg2) = m ((c.tc : Thread nD τ).loc main_arg2) :=
  (W2_of_ne m ρ c main_arg2 (by decide)).trans (head_keeps_arg2 (W0 m ρ c))

/-- The last boundary's contents at the result buffer: the layer of the four arguments. -/
theorem value (c : Dev nD) : W5 m ρ c (Proc.devRef .tc main_v53) = layer m c := by
  have e46 : V3 m ρ c main_v46
      = Graph.agg (F := Ideal) (W2 m ρ c (Proc.devRef .tc main_v2)) (W2 m ρ c (Proc.devRef .tc main_arg3)) :=
    mid_agg (W2 m ρ c)
  have e2 : V3 m ρ c main_v2 = W2 m ρ c (Proc.devRef .tc main_v2) := mid_keeps_features (W2 m ρ c)
  have e49 : V3 m ρ c main_v49 = Graph.invdegCol (F := Ideal) (W2 m ρ c (Proc.devRef .tc main_arg3)) :=
    mid_invdeg (W2 m ρ c)
  have e50 : V3 m ρ c main_v50 = Graph.biasRow (F := Ideal) (W2 m ρ c (Proc.devRef .tc main_arg2)) :=
    mid_bias (W2 m ρ c)
  have hout : W4 m ρ c (Proc.devRef .tc main_v51)
      = Combine.out (V3 m ρ c main_v46) (V3 m ρ c main_v2) (V3 m ρ c main_v49) (V3 m ρ c main_v50) :=
    (W4_arr m ρ c 4).trans (Combine.final (V3 m ρ) c)
  rw [e46, e2, e49, e50, features_eq m ρ c, edges_eq m ρ c, bias_eq m ρ c] at hout
  exact (tail_unnodes (W4 m ρ c)).trans (congrArg (Graph.unnodes (F := Ideal)) hout)

end Cert.KernelIdeal.Result

end
-- ==== Proof.RefValue.lean ====
/-
  The reference's result in the kernel's vocabulary.

  The reference computes the transformed features with one host matrix product, runs the same graph-dependent stage
  on them, and then combines on the host: aggregate plus features times the reciprocal degree broadcast along the
  columns, plus the bias broadcast along the rows, maximum with zero; its result is that array put back in the input's
  layout. Two facts connect it to the kernel. On the extended reals the host's matrix product is, entry by entry, the
  sum over the contracted axis of the products, whatever the order of summation. And the host's combine expression is,
  entry by entry, max((A(r, j) + H(r, j) · D(r)) + B(j), 0): a reciprocal degree read through its one-column form and
  a bias read through its one-row form are the values themselves.
-/
import proofs.«154906_j52965536694818_1_alg».proof.Proof.Gen.ReferenceIdeal.Run
import proofs.«154906_j52965536694818_1_alg».proof.Proof.Transform
import proofs.«154906_j52965536694818_1_alg».proof.Proof.Combine
import proofs.«154906_j52965536694818_1_alg».proof.Proof.Graph
import proofs.«154906_j52965536694818_1_alg».proof.Proof.Layer
import proofs.«154906_j52965536694818_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The host's product of a 50000×128 array with a 128×128 one is the entrywise sum of products. -/
theorem dot_eq_prod (a : FVec Ideal S50000x128 .f32) (w : FVec Ideal S128x128 .f32) :
    Host.dotGeneral dot_S50000x128_S128x128_S50000x128_1_0_0_1_n_n none a w = Cert.KernelIdeal.Transform.prod a w := by
  funext i
  obtain ⟨p, q, rfl⟩ : ∃ (p : Fin 50000) (q : Fin 128), i = ix2 p q := ⟨i 0, i 1, eq_ix2 i⟩
  show _ = ∑ k : Fin 128, a (ix2 p k) * w (ix2 k q)
  simp only [Host.dotGeneral]
  rw [Ideal.dotGeneral_apply,
    ← Equiv.sum_comp (contrEquiv1 dot_S50000x128_S128x128_S50000x128_1_0_0_1_n_n 128
      (Cert.LibMatmulNN.contr_rank dot_S50000x128_S128x128_S50000x128_1_0_0_1_n_n rfl)
      (Cert.LibMatmulNN.contr_size dot_S50000x128_S128x128_S50000x128_1_0_0_1_n_n rfl)).symm]
  refine Finset.sum_congr rfl fun k _ => ?_
  rw [Cert.LibMatmulNN.lhsIdx_eq dot_S50000x128_S128x128_S50000x128_1_0_0_1_n_n rfl rfl rfl p q k,
    Cert.LibMatmulNN.rhsIdx_eq dot_S50000x128_S128x128_S50000x128_1_0_0_1_n_n rfl rfl rfl rfl rfl rfl p q k]

/-- A length-a array cast to one column reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's combine expression, entry by entry, is the kernel's: the reciprocal degrees and the bias enter only
    through broadcasts along the columns and along the rows. -/
theorem combine_eq (A H : FVec Ideal S50000x128 .f32) (D : FVec Ideal S50000 .f32) (B : FVec Ideal S128 .f32)
    (h1 : S50000.ShapeCasts S50000x1) (h2 : S128.ShapeCasts S1x128) :
    maximumf
      (addf
        (addf A (mulf H (broadcastInDim S50000x128 ![0, 1] bcast_S50000x1_S50000x128_0_1
          (broadcastInDim S50000x1 ![0] bcast_S50000_S50000x1_0 D))))
        (broadcastInDim S50000x128 ![0, 1] bcast_S1x128_S50000x128_0_1 (broadcastInDim S1x128 ![1] bcast_S128_S1x128_1 B)))
      (broadcastInDim S50000x128 ![] bcast_S_S50000x128 (constant (F := Ideal) S_ .f32 0x00000000#32))
    = Cert.KernelIdeal.Combine.out A H (shapeCast S50000x1 D h1) (shapeCast S1x128 B h2) := by
  funext i
  obtain ⟨p, q, rfl⟩ : ∃ (p : Fin 50000) (q : Fin 128), i = ix2 p q := ⟨i 0, i 1, eq_ix2 i⟩
  have eD : broadcastInDim S50000x128 ![0, 1] bcast_S50000x1_S50000x128_0_1
      (broadcastInDim S50000x1 ![0] bcast_S50000_S50000x1_0 D) (ix2 p q) = D (ix1 p) := by
    rw [broadcastInDim_apply ![0, 1] bcast_S50000x1_S50000x128_0_1 _ (ix2 p q) (ix2 p (0 : Fin 1)) (fun a => by
      match a with
      | ⟨0, _⟩ => rfl
      | ⟨1, _⟩ => rfl)]
    exact broadcastInDim_apply ![0] bcast_S50000_S50000x1_0 D (ix2 p (0 : Fin 1)) (ix1 p) (fun a => by
      match a with
      | ⟨0, _⟩ => rfl)
  have eB : broadcastInDim S50000x128 ![0, 1] bcast_S1x128_S50000x128_0_1
      (broadcastInDim S1x128 ![1] bcast_S128_S1x128_1 B) (ix2 p q) = B (ix1 q) := by
    rw [broadcastInDim_apply ![0, 1] bcast_S1x128_S50000x128_0_1 _ (ix2 p q) (ix2 (0 : Fin 1) q) (fun a => by
      match a with
      | ⟨0, _⟩ => rfl
      | ⟨1, _⟩ => rfl)]
    exact broadcastInDim_apply ![1] bcast_S128_S1x128_1 B (ix2 (0 : Fin 1) q) (ix1 q) (fun a => by
      match a with
      | ⟨0, _⟩ => rfl)
  have eZ : broadcastInDim S50000x128 ![] bcast_S_S50000x128 (constant (F := Ideal) S_ .f32 0x00000000#32) (ix2 p q)
      = Ideal.ofBits .f32 0x00000000#32 :=
    broadcastInDim_apply ![] bcast_S_S50000x128 _ (ix2 p q) ix0 (fun a => a.elim0)
  have cD : shapeCast S50000x1 D h1 (ix2 p (0 : Fin 1)) = D (ix1 p) := shapeCast_a_a1_apply D h1 p 0
  have cB : shapeCast S1x128 B h2 (ix2 (0 : Fin 1) q) = B (ix1 q) := shapeCast_a_1a_apply B h2 0 q
  show max ((A (ix2 p q) + H (ix2 p q) * _) + _) _ = max ((A (ix2 p q) + H (ix2 p q) * _) + _) _
  rw [eD, eB, eZ]
  show _ = max ((A (ix2 p q) + H (ix2 p q) * shapeCast S50000x1 D h1 (ix2 p (0 : Fin 1)))
    + shapeCast S1x128 B h2 (ix2 (0 : Fin 1) q)) (Ideal.ofBits .f32 0x00000000#32)
  rw [cD, cB]

/-- The reference's result term is the layer of its four arguments. -/
theorem value (m : (ℓ : Loc nD τ sig) → Buf (Elt Ideal) ℓ) (c : Dev nD) :
    Cert.ReferenceIdeal.Value.res_main_v58 (F := Ideal) m c
      = Cert.KernelIdeal.Layer.layer (m ((c.tc : Thread nD τ).loc main_arg0)) (m ((c.tc : Thread nD τ).loc main_arg1))
          (m ((c.tc : Thread nD τ).loc main_arg2)) (m ((c.tc : Thread nD τ).loc main_arg3)) := by
  have h0 : Cert.ReferenceIdeal.Value.res_main_v58 (F := Ideal) m c
      = Cert.KernelIdeal.Graph.unnodes (F := Ideal)
          (maximumf
            (addf
              (addf
                (Cert.KernelIdeal.Graph.agg (F := Ideal)
                  (Host.dotGeneral (F := Ideal) (φ₁ := .f32) (φ₂ := .f32) dot_S50000x128_S128x128_S50000x128_1_0_0_1_n_n none
                    (Cert.KernelIdeal.Graph.nodes (F := Ideal) (m ((c.tc : Thread nD τ).loc main_arg0)))
                    (m ((c.tc : Thread nD τ).loc main_arg1)))
                  (m ((c.tc : Thread nD τ).loc main_arg3)))
                (mulf
                  (Host.dotGeneral (F := Ideal) (φ₁ := .f32) (φ₂ := .f32) dot_S50000x128_S128x128_S50000x128_1_0_0_1_n_n none
                    (Cert.KernelIdeal.Graph.nodes (F := Ideal) (m ((c.tc : Thread nD τ).loc main_arg0)))
                    (m ((c.tc : Thread nD τ).loc main_arg1)))
                  (broadcastInDim S50000x128 ![0, 1] bcast_S50000x1_S50000x128_0_1
                    (broadcastInDim S50000x1 ![0] bcast_S50000_S50000x1_0
                      (Cert.KernelIdeal.Graph.invdeg (F := Ideal) (m ((c.tc : Thread nD τ).loc main_arg3)))))))
              (broadcastInDim S50000x128 ![0, 1] bcast_S1x128_S50000x128_0_1
                (broadcastInDim S1x128 ![1] bcast_S128_S1x128_1 (m ((c.tc : Thread nD τ).loc main_arg2)))))
            (broadcastInDim S50000x128 ![] bcast_S_S50000x128 (constant (F := Ideal) S_ .f32 0x00000000#32))) := by
    unfold Cert.ReferenceIdeal.Value.res_main_v58
    rfl
  rw [h0, dot_eq_prod,
    combine_eq _ _ _ _ Cert.KernelIdeal.Gen.shapeCasts_S50000_S50000x1 Cert.KernelIdeal.Gen.shapeCasts_S128_S1x128]
  rfl

end Cert.ReferenceIdeal.RefValue

end
-- ==== Proof.lean ====
/-
  A graph-convolution layer: the kernel program against its reference, over the extended reals.

  Both programs take an input x (2 × 128 × 25000), a 128×128 weight matrix, a bias of length 128 and a list of 800000
  directed edges over the 50000 nodes (batch × time), and return
      relu( A + H / deg + bias ),    H = X·W,    A(i) = Σ over edges (s → i) of H(s) / sqrt(deg s · deg i),
  where X is x with its channels last and batch and time merged, deg is the in-degree plus one, and the result goes
  back to x's layout. The reference does all of it with host operations. The kernel program computes H in a first
  kernel region (ten blocks of 5000 rows, each a bf16 matrix product into a zero accumulator), runs the very same host
  operations for deg, the edge weights and A, and computes relu((A + H · (1/deg)) + bias) in a second kernel region,
  again ten blocks of 5000 rows.

  On the extended reals the two agree with no condition on the inputs: narrowing to bf16 is the identity; a block's
  matrix product into zero and the host's product are the same sum over the contracted axis; the ten row blocks tile
  the rows, so each region's output array is the whole-array function its blocks are restrictions of; the
  graph-dependent stage is one function of H and the edge list, applied in both programs to equal H; and the second
  region's entrywise expression is the reference's, with the same grouping of the two additions. The finiteness
  precondition is never opened.

  The frames of the two kernel programs are the generated ones; the reference's frame is its generated run with the
  result dropped; the idealization rewrote nothing, so there is nothing to preserve.
-/
import proofs.«154906_j52965536694818_1_alg».proof.Defs
import proofs.«154906_j52965536694818_1_alg».proof.Proof.Gen.Kernel
import proofs.«154906_j52965536694818_1_alg».proof.Proof.Gen.Kernel.Skeleton
import proofs.«154906_j52965536694818_1_alg».proof.Proof.Gen.Kernel.Launch
import proofs.«154906_j52965536694818_1_alg».proof.Proof.Gen.Kernel.Points
import proofs.«154906_j52965536694818_1_alg».proof.Proof.Gen.Kernel.Frame
import proofs.«154906_j52965536694818_1_alg».proof.Proof.Gen.KernelIdeal
import proofs.«154906_j52965536694818_1_alg».proof.Proof.Gen.KernelIdeal.Skeleton
import proofs.«154906_j52965536694818_1_alg».proof.Proof.Gen.KernelIdeal.Launch
import proofs.«154906_j52965536694818_1_alg».proof.Proof.Gen.KernelIdeal.Points
import proofs.«154906_j52965536694818_1_alg».proof.Proof.Gen.KernelIdeal.Frame
import proofs.«154906_j52965536694818_1_alg».proof.Proof.Gen.ReferenceIdeal
import proofs.«154906_j52965536694818_1_alg».proof.Proof.Gen.Pre_finite_inputs
import proofs.«154906_j52965536694818_1_alg».proof.Proof.Gen.ReferenceIdeal.Run
import proofs.«154906_j52965536694818_1_alg».proof.Proof.Launched
import proofs.«154906_j52965536694818_1_alg».proof.Proof.Result
import proofs.«154906_j52965536694818_1_alg».proof.Proof.RefValue
import Idealize.ShloMosaic.Adequacy
import Idealize.ShloMosaic.Init

noncomputable section

namespace Cert.Proof

open Idealize.ShloMosaic Idealize.SL.Sem

/-- The word-level kernel program runs, nothing faulting, and leaves its arguments alone. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the layer of those arguments in their
    result buffers: the kernel program by its run read at the result, the reference by its run's term. -/
theorem algebraic : Cert.algebraic_KernelIdeal_ReferenceIdeal := by
  intro m ρ m' ρ' _ hagree
  refine ⟨fun c => Cert.KernelIdeal.Result.layer m c, ?_, ?_⟩
  · exact (θ_run Cert.KernelIdeal.defs _ _).mono
      (fun _ h c => ⟨(h c).1.trans (Cert.KernelIdeal.Result.value m ρ c), (h c).2⟩)
      (Cert.KernelIdeal.Launched.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.value m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
